-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x64 : Shape := ⟨2, ![65536, 64]⟩
abbrev S4096x64 : Shape := ⟨2, ![4096, 64]⟩
abbrev S1x4096 : Shape := ⟨2, ![1, 4096]⟩
abbrev S1 : Shape := ⟨1, ![1]⟩
abbrev S_ : Shape := ⟨0, ![]⟩

class Facts : Prop where
  bcast_S_S65536x64 : S_.BroadcastsInDim S65536x64 (![] : Fin 0 → Fin S65536x64.rank)
  reducesTo_S65536x64_S_d0_1 : S65536x64.ReducesTo [0, 1] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S1x4096 : S_.BroadcastsInDim S1x4096 (![] : Fin 0 → Fin S1x4096.rank)
  reducesTo_S1x4096_S_d0_1 : S1x4096.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S65536x64 .f32) (main_arg1 : FVec F S4096x64 .f32) (main_arg2 : FVec F S1x4096 .f32) (main_arg3 : FVec F S1 .f32) : IVec S_ 1 :=
  let main_v0 : FVec F S65536x64 .f32 := Host.absf main_arg0
  let main_cst : FVec F S_ .f32 := constant S_ .f32 0x7F800000#32
  let main_v1 : FVec F S65536x64 .f32 := broadcastInDim S65536x64 ![] bcast_S_S65536x64 main_cst
  let main_v2 : IVec S65536x64 1 := cmpf .olt main_v0 main_v1
  let main_c : IVec S_ 1 := constantI S_ 1 1#1
  let main_v3 : IVec S_ 1 := (fun x v => Host.reduce IntOp.andi x v reducesTo_S65536x64_S_d0_1 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S1x4096 .f32 := Host.absf main_arg2
  let main_cst_2 : FVec F S_ .f32 := constant S_ .f32 0x7F800000#32
  let main_v10 : FVec F S1x4096 .f32 := broadcastInDim S1x4096 ![] bcast_S_S1x4096 main_cst_2
  let main_v11 : IVec S1x4096 1 := cmpf .olt main_v9 main_v10
  let main_c_3 : IVec S_ 1 := constantI S_ 1 1#1
  let main_v12 : IVec S_ 1 := (fun x v => Host.reduce IntOp.andi x v reducesTo_S1x4096_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S65536x64 : Shape := ⟨2, ![65536, 64]⟩
abbrev S4096x64 : Shape := ⟨2, ![4096, 64]⟩
abbrev S1x4096 : Shape := ⟨2, ![1, 4096]⟩
abbrev S1 : Shape := ⟨1, ![1]⟩
abbrev S_ : Shape := ⟨0, ![]⟩
abbrev S4096 : Shape := ⟨1, ![4096]⟩
abbrev S4096x1 : Shape := ⟨2, ![4096, 1]⟩
abbrev S1x1 : Shape := ⟨2, ![1, 1]⟩
abbrev S65536x1 : Shape := ⟨2, ![65536, 1]⟩
abbrev S512x64 : Shape := ⟨2, ![512, 64]⟩
abbrev S512x1 : Shape := ⟨2, ![512, 1]⟩
abbrev S512 : Shape := ⟨1, ![512]⟩
abbrev S512x4096 : Shape := ⟨2, ![512, 4096]⟩

abbrev nBuf : Space → Nat
  | .hbm => 11
  | .vmem => 8
  | .smem => 0
  | _ => 0

abbrev bufTy : (tb : Table) → Fin (tcTables nBuf tb) → BufTy
  | .hbm, ⟨0, _⟩ => ⟨S65536x64, .f32⟩
  | .hbm, ⟨1, _⟩ => ⟨S4096x64, .f32⟩
  | .hbm, ⟨2, _⟩ => ⟨S1x4096, .f32⟩
  | .hbm, ⟨3, _⟩ => ⟨S1, .f32⟩
  | .hbm, ⟨4, _⟩ => ⟨S4096x64, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S1x4096, .f32⟩
  | .hbm, ⟨9, _⟩ => ⟨S1x1, .f32⟩
  | .hbm, ⟨10, _⟩ => ⟨S65536x1, .f32⟩
  | .local _ .vmem, ⟨0, _⟩ => ⟨S512x64, .f32⟩
  | .local _ .vmem, ⟨1, _⟩ => ⟨S512x64, .f32⟩
  | .local _ .vmem, ⟨2, _⟩ => ⟨S4096x64, .f32⟩
  | .local _ .vmem, ⟨3, _⟩ => ⟨S1x4096, .f32⟩
  | .local _ .vmem, ⟨4, _⟩ => ⟨S1x4096, .f32⟩
  | .local _ .vmem, ⟨5, _⟩ => ⟨S1x1, .f32⟩
  | .local _ .vmem, ⟨6, _⟩ => ⟨S512x1, .f32⟩
  | .local _ .vmem, ⟨7, _⟩ => ⟨S512x1, .f32⟩
  | _, _ => ⟨S65536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  reducesTo_S4096x64_S4096_d1 : S4096x64.ReducesTo [1] S4096
  h_S_ : 0 < S_.numel
  bcast_S4096_S4096x1_0 : S4096.BroadcastsInDim S4096x1 (![0] : Fin 1 → Fin S4096x1.rank)
  transposes_S4096x1_S1x4096_1_0 : S4096x1.Transposes [1, 0] S1x4096
  shapeCasts_S1_S1x1 : S1.ShapeCasts S1x1
  inb_S512x64_S512x64_0_0 : ∀ a, (![0, 0] : Fin 2 → Nat) a + S512x64.size a ≤ S512x64.size a
  h_S512x64 : 0 < S512x64.numel
  inb_S4096x64_S4096x64_0_0 : ∀ a, (![0, 0] : Fin 2 → Nat) a + S4096x64.size a ≤ S4096x64.size a
  h_S4096x64 : 0 < S4096x64.numel
  reduces_S512x64_S512 : S512x64.Reduces [1] S512
  shapeCasts_S512_S512x1 : S512.ShapeCasts S512x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S512x1_S512x4096 : S512x1.Broadcasts S512x4096
  broadcasts_S1x4096_S512x4096 : S1x4096.Broadcasts S512x4096
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  dot_S512x64_S4096x64_S512x4096_1_1_0_0_n_n_wf : DotDims.WF S512x64 S4096x64 S512x4096 [1] [1] [0] [0] [] []
  dot_S512x4096_S1x4096_S512x1_1_1_0_0_n_n_wf : DotDims.WF S512x4096 S1x4096 S512x1 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S65536x64.size a
  hwx0_0 : ∀ i : grid0.Coords, EltTy.bits .f32 = 32 ∨ (Rect.block (s := S65536x64) S512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S4096x64.size a
  hwx0_1 : ∀ i : grid0.Coords, EltTy.bits .f32 = 32 ∨ (Rect.block (s := S4096x64) S4096x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S65536x1.size a
  hwx0_5 : ∀ i : grid0.Coords, EltTy.bits .f32 = 32 ∨ (Rect.block (s := S65536x1) S512x1.size (cc0_transform_5 i) (hinb0_5 i)).WholeWords (EltTy.packing .f32)

variable [Facts₀]

def dot_S512x64_S4096x64_S512x4096_1_1_0_0_n_n : DotDims S512x64 S4096x64 S512x4096 where
  lhsContracting := [1]
  rhsContracting := [1]
  lhsNonContracting := [0]
  rhsNonContracting := [0]
  lhsBatch := []
  rhsBatch := []
  wf := dot_S512x64_S4096x64_S512x4096_1_1_0_0_n_n_wf
def dot_S512x4096_S1x4096_S512x1_1_1_0_0_n_n : DotDims S512x4096 S1x4096 S512x1 where
  lhsContracting := [1]
  rhsContracting := [1]
  lhsNonContracting := [0]
  rhsNonContracting := [0]
  lhsBatch := []
  rhsBatch := []
  wf := dot_S512x4096_S1x4096_S512x1_1_1_0_0_n_n_wf

abbrev win0_0 : Pipeline.Window sig grid0 :=
  Pipeline.Window.ofSpec (Memref.whole main_arg0) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S512x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S65536x64 : Shape := ⟨2, ![65536, 64]⟩
abbrev S4096x64 : Shape := ⟨2, ![4096, 64]⟩
abbrev S1x4096 : Shape := ⟨2, ![1, 4096]⟩
abbrev S1 : Shape := ⟨1, ![1]⟩
abbrev S_ : Shape := ⟨0, ![]⟩
abbrev S65536 : Shape := ⟨1, ![65536]⟩
abbrev S65536x1 : Shape := ⟨2, ![65536, 1]⟩
abbrev S4096 : Shape := ⟨1, ![4096]⟩
abbrev S65536x4096 : Shape := ⟨2, ![65536, 4096]⟩
abbrev S64x4096 : Shape := ⟨2, ![64, 4096]⟩
abbrev S4096x1 : Shape := ⟨2, ![4096, 1]⟩
abbrev S1x1 : Shape := ⟨2, ![1, 1]⟩

abbrev nBuf : Space → Nat
  | .hbm => 36
  | .vmem => 0
  | .smem => 0
  | _ => 0

abbrev bufTy : (tb : Table) → Fin (tcTables nBuf tb) → BufTy
  | .hbm, ⟨0, _⟩ => ⟨S65536x64, .f32⟩
  | .hbm, ⟨1, _⟩ => ⟨S4096x64, .f32⟩
  | .hbm, ⟨2, _⟩ => ⟨S1x4096, .f32⟩
  | .hbm, ⟨3, _⟩ => ⟨S1, .f32⟩
  | .hbm, ⟨4, _⟩ => ⟨S65536x64, .f32⟩
  | .hbm, ⟨5, _⟩ => ⟨S_, .f32⟩
  | .hbm, ⟨6, _⟩ => ⟨S65536, .f32⟩
  | .hbm, ⟨7, _⟩ => ⟨S65536x1, .f32⟩
  | .hbm, ⟨8, _⟩ => ⟨S4096x64, .f32⟩
  | .hbm, ⟨9, _⟩ => ⟨S_, .f32⟩
  | .hbm, ⟨10, _⟩ => ⟨S4096, .f32⟩
  | .hbm, ⟨11, _⟩ => ⟨S1x4096, .f32⟩
  | .hbm, ⟨12, _⟩ => ⟨S65536x4096, .f32⟩
  | .hbm, ⟨13, _⟩ => ⟨S65536x4096, .f32⟩
  | .hbm, ⟨14, _⟩ => ⟨S65536x4096, .f32⟩
  | .hbm, ⟨15, _⟩ => ⟨S64x4096, .f32⟩
  | .hbm, ⟨16, _⟩ => ⟨S65536x4096, .f32⟩
  | .hbm, ⟨17, _⟩ => ⟨S_, .f32⟩
  | .hbm, ⟨18, _⟩ => ⟨S65536x4096, .f32⟩
  | .hbm, ⟨19, _⟩ => ⟨S65536x4096, .f32⟩
  | .hbm, ⟨20, _⟩ => ⟨S65536x4096, .f32⟩
  | .hbm, ⟨21, _⟩ => ⟨S65536x4096, .f32⟩
  | .hbm, ⟨22, _⟩ => ⟨S65536x4096, .f32⟩
  | .hbm, ⟨23, _⟩ => ⟨S4096x1, .f32⟩
  | .hbm, ⟨24, _⟩ => ⟨S65536x1, .f32⟩
  | .hbm, ⟨25, _⟩ => ⟨S1x1, .f32⟩
  | .hbm, ⟨26, _⟩ => ⟨S65536x1, .f32⟩
  | .hbm, ⟨27, _⟩ => ⟨S65536x1, .f32⟩
  | .hbm, ⟨28, _⟩ => ⟨S65536x1, .f32⟩
  | .hbm, ⟨29, _⟩ => ⟨S65536x1, .f32⟩
  | .hbm, ⟨30, _⟩ => ⟨S_, .f32⟩
  | .hbm, ⟨31, _⟩ => ⟨S65536x1, .f32⟩
  | .hbm, ⟨32, _⟩ => ⟨S65536x1, .f32⟩
  | .hbm, ⟨33, _⟩ => ⟨S_, .f32⟩
  | .hbm, ⟨34, _⟩ => ⟨S65536x1, .f32⟩
  | .hbm, ⟨35, _⟩ => ⟨S65536x1, .f32⟩
  | _, _ => ⟨S65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]

class Facts₀ : Prop where
  reducesTo_S65536x64_S65536_d1 : S65536x64.ReducesTo [1] S65536
  h_S_ : 0 < S_.numel
  bcast_S65536_S65536x1_0 : S65536.BroadcastsInDim S65536x1 (![0] : Fin 1 → Fin S65536x1.rank)
  reducesTo_S4096x64_S4096_d1 : S4096x64.ReducesTo [1] S4096
  bcast_S4096_S1x4096_1 : S4096.BroadcastsInDim S1x4096 (![1] : Fin 1 → Fin S1x4096.rank)
  bcast_S65536x1_S65536x4096_0_1 : S65536x1.BroadcastsInDim S65536x4096 (![0, 1] : Fin 2 → Fin S65536x4096.rank)
  bcast_S1x4096_S65536x4096_0_1 : S1x4096.BroadcastsInDim S65536x4096 (![0, 1] : Fin 2 → Fin S65536x4096.rank)
  transposes_S4096x64_S64x4096_1_0 : S4096x64.Transposes [1, 0] S64x4096
  bcast_S_S65536x4096 : S_.BroadcastsInDim S65536x4096 (![] : Fin 0 → Fin S65536x4096.rank)
  transposes_S1x4096_S4096x1_1_0 : S1x4096.Transposes [1, 0] S4096x1
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  bcast_S_S65536x1 : S_.BroadcastsInDim S65536x1 (![] : Fin 0 → Fin S65536x1.rank)
  dot_S65536x64_S64x4096_S65536x4096_1_0_0_1_n_n_wf : DotDims.WF S65536x64 S64x4096 S65536x4096 [1] [0] [0] [1] [] []
  dot_S65536x4096_S4096x1_S65536x1_1_0_0_1_n_n_wf : DotDims.WF S65536x4096 S4096x1 S65536x1 [1] [0] [0] [1] [] []

variable [Facts₀]

def dot_S65536x64_S64x4096_S65536x4096_1_0_0_1_n_n : DotDims S65536x64 S64x4096 S65536x4096 where
  lhsContracting := [1]
  rhsContracting := [0]
  lhsNonContracting := [0]
  rhsNonContracting := [1]
  lhsBatch := []
  rhsBatch := []
  wf := dot_S65536x64_S64x4096_S65536x4096_1_0_0_1_n_n_wf
def dot_S65536x4096_S4096x1_S65536x1_1_0_0_1_n_n : DotDims S65536x4096 S4096x1 S65536x1 where
  lhsContracting := [1]
  rhsContracting := [0]
  lhsNonContracting := [0]
  rhsNonContracting := [1]
  lhsBatch := []
  rhsBatch := []
  wf := dot_S65536x4096_S4096x1_S65536x1_1_0_0_1_n_n_wf

class Facts : Prop extends Facts₀ where

variable [Facts]
-- ==== Proof.LibTransposedDot.lean ====
/-
  A matrix product whose right operand is contracted on its LAST axis, read at an entry.

  The dimension numbers "contract the left operand's columns with the right operand's columns, no batch axis"
  (`DotDims.transposedRhs M K N`: an `M × K` matrix against an `N × K` one) give, on the extended reals and
  into a zero accumulator, the entry `(p, q) ↦ ∑ k, lhs (p, k) * rhs (q, k)`: the product with the right
  operand's transpose. The contraction index of the library is a one-coordinate index; the bijection with
  `Fin K` moves the sum.
-/
import Idealize.ShloMosaic.PureOps.Ideal.Laws
import Idealize.ShloMosaic.Lib.ValueIdx

namespace LinkLoss

open Idealize.ShloMosaic Idealize.ShloMosaic.ValueIdx

variable {M K N : ℕ}

/-- The left operand's index at output entry `(p, q)` and contracted coordinate `k` is `(p, k)`. -/
theorem transposed_lhsIdx (p : Fin M) (q : Fin N) (k : Fin K) :
    (DotDims.transposedRhs M K N).lhsIdx (ix2 p q) ((contrEquiv1 (DotDims.transposedRhs M K N) K rfl rfl).symm k)
      = ix2 p k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single (cl := 1) rfl _ _).trans hk

/-- The right operand's index at output entry `(p, q)` and contracted coordinate `k` is `(q, k)`. -/
theorem transposed_rhsIdx (p : Fin M) (q : Fin N) (k : Fin K) :
    (DotDims.transposedRhs M K N).rhsIdx (ix2 p q) ((contrEquiv1 (DotDims.transposedRhs M K N) K rfl rfl).symm k)
      = ix2 q k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single (cr := 1) rfl _ _).trans hk

/-- The matrix unit accumulating into the zero vector, read at entry `(p, q)`. -/
theorem transposed_matmul_zero_apply {φ₁ φ₂ : FTy} (lhs : FVec Ideal ⟨2, ![M, K]⟩ φ₁) (rhs : FVec Ideal ⟨2, ![N, K]⟩ φ₂)
    (prec : Option ContractPrecision) (p : Fin M) (q : Fin N) :
    FloatOps.matmul (DotDims.transposedRhs M K N) prec lhs rhs (constant ⟨2, ![M, N]⟩ .f32 0x00000000#32) (ix2 p q)
      = ∑ k : Fin K, lhs (ix2 p k) * rhs (ix2 q k) := by
  refine (Ideal.matmul_constant_zero_apply (DotDims.transposedRhs M K N) prec lhs rhs (ix2 p q)).trans ?_
  rw [← Equiv.sum_comp (contrEquiv1 (DotDims.transposedRhs M K N) K rfl rfl).symm]
  refine Finset.sum_congr rfl fun k _ => ?_
  rw [transposed_lhsIdx, transposed_rhsIdx]

end LinkLoss
-- ==== Proof.LibRowOps.lean ====
/-
  Row-wise reductions of an `[a, b]` vector and the keepdims column forms, read at an index.

  A kernel body that normalises each row (a softmax, a log-softmax, a layer norm) reduces its `[a, b]` block along
  axis 1 into `[a]`, recasts that to the column `[a, 1]` and broadcasts the column back over `[a, b]`. On the
  extended reals: the `maximumf` reduction at row `r` is the fold of `max` from `⊥` over the row's `b` entries
  (its accumulator pattern is `-∞`), the `add` reduction is the row's sum, the cast reads `(r, 0) ↦ r`, and the
  broadcast reads `(r, c) ↦ (r, 0)`. The host's one-axis `reduce` with a `maximum` body is the same fold from its
  initial value.
-/
import Idealize.ShloMosaic.PureOps.Ideal.Laws
import Idealize.ShloMosaic.Lib.ValueIdx
import Idealize.ShloMosaic.Lib.Pipeline.Value

namespace Gcn.Lib

open Idealize.ShloMosaic Idealize.ShloMosaic.ValueIdx

variable {a b : ℕ}

/-- The f32 pattern of `-∞` denotes `⊥`. -/
theorem ofBits_neg_inf_f32 : Ideal.ofBits .f32 0xFF800000#32 = ⊥ := by simp [Ideal.ofBits, Ideal.ieee]

/-- Row `r` with the column coordinate `k` put back is the entry `(r, k)`. -/
theorem lift_row (h : Shape.Reduces ⟨2, ![a, b]⟩ [1] ⟨1, ![a]⟩) (r : Fin a) (k : Fin b) :
    h.lift (ix1 r) k = ix2 r k := by
  funext d
  apply Fin.ext
  match d with
  | ⟨0, h0⟩ =>
    show h.liftVal (ix1 r) k.val ⟨0, h0⟩ = r.val
    unfold Shape.Reduces.liftVal
    split
    · next hc => exact absurd hc Nat.zero_ne_one
    · split
      · rfl
      · next hlt => exact absurd Nat.zero_lt_one hlt
  | ⟨1, h1⟩ =>
    show h.liftVal (ix1 r) k.val ⟨1, h1⟩ = k.val
    unfold Shape.Reduces.liftVal
    split
    · rfl
    · next hc => exact absurd rfl hc

/-- A kernel's `multi_reduction <maximumf>` along axis 1 from the `-∞` accumulator, at row `r`: the fold of `max`
    from `⊥` over the row. -/
theorem rowMax_apply (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max ⊥ (fun k => v (ix2 r k)) := by
  refine (Ideal.multiReduction_maximumf_single v 0xFF800000#32 h hφ hacc (ix1 r)).trans ?_
  show (Finset.univ : Finset (Fin b)).fold max (Ideal.ofBits .f32 0xFF800000#32) (v ∘ h.lift (ix1 r)) = _
  rw [ofBits_neg_inf_f32]
  exact congrArg (fun f => (Finset.univ : Finset (Fin b)).fold max ⊥ f) (funext fun k => congrArg v (lift_row h r k))

/-- A kernel's `multi_reduction <add>` along axis 1, at row `r`: the row's sum. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  exact Finset.sum_congr rfl fun k _ => congrArg v (lift_row h r k)

/-- The host's one-axis `reduce` with a `maximum` body along axis 1, at row `r`: the fold of `max` from the
    initial value over the row. -/
theorem hostRowMax_apply {u : Shape} (x : (⟨2, ![a, b]⟩ : Shape).Idx → EReal) (init : u.Idx → EReal)
    (h' : Shape.ReducesTo ⟨2, ![a, b]⟩ [1] ⟨1, ![a]⟩) (h : Shape.Reduces ⟨2, ![a, b]⟩ [1] ⟨1, ![a]⟩) (hu : 0 < u.numel)
    (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  show (Finset.univ : Finset (Fin b)).fold max (init (Shape.Idx.first hu)) (x ∘ h.lift (ix1 r)) = _
  exact congrArg (fun f => (Finset.univ : Finset (Fin b)).fold max (init (Shape.Idx.first hu)) f)
    (funext fun k => congrArg x (lift_row h r k))

/-- An `[a]` vector cast to the column `[a, 1]` reads, at `(r, u)`, the operand at `r`. -/
theorem shapeCast_a_a1_apply {α : Type} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {α : Type} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Gcn.Lib
-- ==== Proof.RbfSpec.lean ====
/-
  The function both programs compute: a layer of Gaussian radial basis functions followed by one logistic unit.

  For an observation row `k` of `x` (64 features) and a centre row `n` of `xb`, the squared distance is expanded as
  `|x_k|² + |c_n|² − 2·⟨x_k, c_n⟩`; the feature is `exp (−distance)`; the 4096 features of row `k` are weighted by the
  row vector `w`, the bias `b` is added, and the logistic function is applied. On the extended reals every sum is a
  plain finite sum (addition is commutative and associative there, so the order in which a program adds does not
  matter), and the literal `2` is carried as the word both programs print, never evaluated.

  Two scalar identities join the two programs' spellings: `0 − y = −y`, and the quotient `1 / (1 + e^(−z))` with
  the ones given as the f32 word of one is the logistic function.
-/
import Idealize.ShloMosaic.PureOps.Ideal
import Idealize.ShloMosaic.PureOps.Ideal.Laws
import Idealize.ShloMosaic.Lib.ValueIdx
import Idealize.ShloMosaic.Lib.IdealHost

noncomputable section

namespace Rbf

open Idealize.ShloMosaic Idealize.ShloMosaic.ValueIdx

/-- The factor of the cross term, as the word both programs carry. -/
abbrev two : EReal := Ideal.ofBits .f32 0x40000000#32

/-- The expanded squared distance from the sums of squares `a`, `c` and the inner product `p`. -/
abbrev sqDistOf (a c p : EReal) : EReal := (a + c) - two * p

/-- The squared distance of observation `k` to centre `n`, expanded. -/
def sqDist (x : FVec Ideal ⟨2, ![65536, 64]⟩ .f32) (xb : FVec Ideal ⟨2, ![4096, 64]⟩ .f32) (k : Fin 65536) (n : Fin 4096) : EReal :=
  sqDistOf (∑ d : Fin 64, x (ix2 k d) * x (ix2 k d)) (∑ d : Fin 64, xb (ix2 n d) * xb (ix2 n d))
    (∑ d : Fin 64, x (ix2 k d) * xb (ix2 n d))

/-- The network's output, one number per observation row. -/
def score (x : FVec Ideal ⟨2, ![65536, 64]⟩ .f32) (xb : FVec Ideal ⟨2, ![4096, 64]⟩ .f32) (w : FVec Ideal ⟨2, ![1, 4096]⟩ .f32)
    (b : FVec Ideal ⟨1, ![1]⟩ .f32) : FVec Ideal ⟨2, ![65536, 1]⟩ .f32 := fun i =>
  Ideal.logistic ((∑ n : Fin 4096, Ideal.exp (-(sqDist x xb (i 0) n)) * w (ix2 (0 : Fin 1) n)) + b (ix1 (0 : Fin 1)))

/-- Subtracting from zero is negation, at every extended real. -/
theorem zero_sub_eq_neg (y : EReal) : Ideal.ofBits .f32 0x00000000#32 - y = -y := by
  rw [Ideal.ofBits_zero_f32, sub_eq_add_neg, zero_add]

/-- The quotient `1 / (1 + e^(−z))`, the ones the f32 word of one, is the logistic function. -/
theorem one_div_one_add_exp_neg (z : EReal) :
    Ideal.div (Ideal.ofBits .f32 0x3F800000#32) (Ideal.ofBits .f32 0x3F800000#32 + Ideal.exp (-z)) = Ideal.logistic z := by
  rw [Ideal.ofBits_one_f32]
  rfl

/-- A sum that starts from the f32 word of zero is the sum. -/
theorem zero_word_add (s : EReal) : Ideal.ofBits .f32 0x00000000#32 + s = s := by
  rw [Ideal.ofBits_zero_f32, zero_add]

end Rbf

end
-- ==== Proof.TileValue.lean ====
/-
  What the kernel body stores for one tile of 512 observation rows, read at a row.

  The body holds the tile `v0` (512 rows of 64 features), all 4096 centres `v1`, the row `v6` of the centres' sums of
  squares, the weight row `v17` and the bias `v19`. At row `r` it stores the logistic function of
  `∑ n, exp (0 − ((∑ d, v0(r,d)² + v6(0,n)) − 2·∑ d, v0(r,d)·v1(n,d))) · v17(0,n) + v19(0,0)`:
  the row's sum of squares is a lane sum recast to a column and repeated across the 4096 columns, the row `v6` is
  repeated down the 512 rows, both matrix products contract the operands' last axes into a zero accumulator, and the
  bias is one number repeated down the column.
-/
import proofs.«176033_j31842887532881_1_alg».proof.Proof.Gen.KernelIdeal.Skeleton
import proofs.«176033_j31842887532881_1_alg».proof.Proof.LibTransposedDot
import proofs.«176033_j31842887532881_1_alg».proof.Proof.LibRowOps
import proofs.«176033_j31842887532881_1_alg».proof.Proof.RbfSpec
import Idealize.ShloMosaic.Lib.ValueLayout
import Idealize.ShloMosaic.Lib.Pipeline.Value

noncomputable section

namespace Rbf.Tile

open Idealize.ShloMosaic Idealize.ShloMosaic.ValueIdx Cert.KernelIdeal Cert.KernelIdeal.Gen

/-- The first product's dimension numbers: a 512×64 tile against the 4096×64 centres, both contracted on the features. -/
theorem crossDims_eq : dot_S512x64_S4096x64_S512x4096_1_1_0_0_n_n = DotDims.transposedRhs 512 64 4096 := rfl

/-- The second product's: the 512×4096 features against the 1×4096 weight row, both contracted on the centres. -/
theorem weightDims_eq : dot_S512x4096_S1x4096_S512x1_1_1_0_0_n_n = DotDims.transposedRhs 512 4096 1 := rfl

/-- The feature matrix of a tile: `exp (0 − distance)` at row `r` and centre `n`. -/
def feature (v0 : FVec Ideal S512x64 .f32) (v1 : FVec Ideal S4096x64 .f32) (v6 : FVec Ideal S1x4096 .f32) : FVec Ideal S512x4096 .f32 :=
  exp (subf (broadcast S512x4096 (Scalar.ofBits .f32 0x00000000#32))
    (subf (addf (broadcastTo S512x4096 (shapeCast S512x1 (multiReduction .add [1] S512 (mulf v0 v0) 0x00000000#32 reduces_S512x64_S512 (.inl rfl) rfl) shapeCasts_S512_S512x1) broadcasts_S512x1_S512x4096)
        (broadcastTo S512x4096 (shapeCast S1x4096 v6 shapeCasts_S1x4096_S1x4096) broadcasts_S1x4096_S512x4096))
      (mulf (broadcast S512x4096 (Scalar.ofBits .f32 0x40000000#32))
        (matmul dot_S512x64_S4096x64_S512x4096_1_1_0_0_n_n none v0 v1 (constant S512x4096 .f32 0x00000000#32)))))

/-- The feature at `(r, n)`: the exponential of minus the expanded squared distance, from the tile's row, the centre's
    row and the centre's sum of squares as the body is handed it. -/
theorem feature_apply (v0 : FVec Ideal S512x64 .f32) (v1 : FVec Ideal S4096x64 .f32) (v6 : FVec Ideal S1x4096 .f32)
    (r : Fin 512) (n : Fin 4096) :
    feature v0 v1 v6 (ix2 r n)
      = Ideal.exp (-(sqDistOf (∑ d : Fin 64, v0 (ix2 r d) * v0 (ix2 r d)) (v6 (ix2 (0 : Fin 1) n))
          (∑ d : Fin 64, v0 (ix2 r d) * v1 (ix2 n d)))) := by
  have hx2 : broadcastTo S512x4096 (shapeCast S512x1 (multiReduction .add [1] S512 (mulf v0 v0) 0x00000000#32 reduces_S512x64_S512 (.inl rfl) rfl) shapeCasts_S512_S512x1) broadcasts_S512x1_S512x4096 (ix2 r n)
      = ∑ d : Fin 64, v0 (ix2 r d) * v0 (ix2 r d) :=
    (Gcn.Lib.broadcastTo_a1_ab_apply _ broadcasts_S512x1_S512x4096 r n).trans <|
      (Gcn.Lib.shapeCast_a_a1_apply _ shapeCasts_S512_S512x1 r 0).trans <|
        Gcn.Lib.rowSum_apply (mulf v0 v0) reduces_S512x64_S512 (.inl rfl) rfl r
  have hc2 : broadcastTo S512x4096 (shapeCast S1x4096 v6 shapeCasts_S1x4096_S1x4096) broadcasts_S1x4096_S512x4096 (ix2 r n)
      = v6 (ix2 (0 : Fin 1) n) := by
    rw [shapeCast_self]
    exact broadcastTo_1b_ab_apply v6 broadcasts_S1x4096_S512x4096 r n
  have hcross : matmul dot_S512x64_S4096x64_S512x4096_1_1_0_0_n_n none v0 v1 (constant S512x4096 .f32 0x00000000#32) (ix2 r n)
      = ∑ d : Fin 64, v0 (ix2 r d) * v1 (ix2 n d) := by
    rw [crossDims_eq]
    exact LinkLoss.transposed_matmul_zero_apply v0 v1 none r n
  show Ideal.exp (Ideal.ofBits .f32 0x00000000#32 - ((_ + _) - Ideal.ofBits .f32 0x40000000#32 * _)) = _
  rw [hx2, hc2, hcross, zero_sub_eq_neg]

/-- WHAT THE BODY STORES at row `r` of its 512×1 block. -/
theorem stored_apply (v0 : FVec Ideal S512x64 .f32) (v1 : FVec Ideal S4096x64 .f32) (v6 v17 : FVec Ideal S1x4096 .f32)
    (v19 : FVec Ideal S1x1 .f32) (r : Fin 512) (u : Fin 1) :
    k0_pay1 (F := Ideal) v0 v1 v6 v17 v19 (ix2 r u)
      = Ideal.logistic ((∑ n : Fin 4096, Ideal.exp (-(sqDistOf (∑ d : Fin 64, v0 (ix2 r d) * v0 (ix2 r d)) (v6 (ix2 (0 : Fin 1) n))
            (∑ d : Fin 64, v0 (ix2 r d) * v1 (ix2 n d)))) * v17 (ix2 (0 : Fin 1) n))
          + v19 (ix2 (0 : Fin 1) (0 : Fin 1))) := by
  have hu : u = 0 := Subsingleton.elim _ _
  subst hu
  have hw : matmul dot_S512x4096_S1x4096_S512x1_1_1_0_0_n_n none (feature v0 v1 v6) v17 (constant S512x1 .f32 0x00000000#32) (ix2 r (0 : Fin 1))
      = ∑ n : Fin 4096, feature v0 v1 v6 (ix2 r n) * v17 (ix2 (0 : Fin 1) n) := by
    rw [weightDims_eq]
    exact LinkLoss.transposed_matmul_zero_apply (feature v0 v1 v6) v17 none r 0
  have hb : broadcastTo S512x1 (shapeCast S1x1 v19 shapeCasts_S1x1_S1x1) broadcasts_S1x1_S512x1 (ix2 r (0 : Fin 1))
      = v19 (ix2 (0 : Fin 1) (0 : Fin 1)) := by
    rw [shapeCast_self]
    exact broadcastTo_1b_ab_apply v19 broadcasts_S1x1_S512x1 r 0
  show Ideal.logistic (matmul dot_S512x4096_S1x4096_S512x1_1_1_0_0_n_n none (feature v0 v1 v6) v17 (constant S512x1 .f32 0x00000000#32) (ix2 r (0 : Fin 1))
      + broadcastTo S512x1 (shapeCast S1x1 v19 shapeCasts_S1x1_S1x1) broadcasts_S1x1_S512x1 (ix2 r (0 : Fin 1))) = _
  rw [hw, hb]
  exact congrArg (fun s => Ideal.logistic (s + v19 (ix2 (0 : Fin 1) (0 : Fin 1))))
    (Finset.sum_congr rfl fun n _ => by rw [feature_apply])

/-- THE TILE AGAINST THE WHOLE ARRAYS. If row `j 0` of the tile is row `k` of `X`, the centres block is `XB`, the
    handed row holds the centres' sums of squares, the weight row is `W` and the handed bias is `B`'s entry, then what
    the body stores at `j` is the network's output at any index whose row is `k`. -/
theorem stored_is_score (X : FVec Ideal ⟨2, ![65536, 64]⟩ .f32) (XB : FVec Ideal ⟨2, ![4096, 64]⟩ .f32)
    (W : FVec Ideal ⟨2, ![1, 4096]⟩ .f32) (B : FVec Ideal ⟨1, ![1]⟩ .f32)
    (v0 : FVec Ideal S512x64 .f32) (v1 : FVec Ideal S4096x64 .f32) (v6 v17 : FVec Ideal S1x4096 .f32) (v19 : FVec Ideal S1x1 .f32)
    (j : S512x1.Idx) (k : Fin 65536)
    (h0 : ∀ d : Fin 64, v0 (ix2 (j 0) d) = X (ix2 k d))
    (h1 : ∀ (n : Fin 4096) (d : Fin 64), v1 (ix2 n d) = XB (ix2 n d))
    (h6 : ∀ n : Fin 4096, v6 (ix2 (0 : Fin 1) n) = ∑ d : Fin 64, XB (ix2 n d) * XB (ix2 n d))
    (h17 : ∀ n : Fin 4096, v17 (ix2 (0 : Fin 1) n) = W (ix2 (0 : Fin 1) n))
    (h19 : v19 (ix2 (0 : Fin 1) (0 : Fin 1)) = B (ix1 (0 : Fin 1)))
    (i : (⟨2, ![65536, 1]⟩ : Shape).Idx) (hi : i 0 = k) :
    k0_pay1 (F := Ideal) v0 v1 v6 v17 v19 j = score X XB W B i := by
  subst hi
  obtain ⟨r, u, rfl⟩ : ∃ (r : Fin 512) (u : Fin 1), j = ix2 r u := ⟨j 0, j 1, eq_ix2 j⟩
  have h0' : ∀ d : Fin 64, v0 (ix2 r d) = X (ix2 (i 0) d) := h0
  rw [stored_apply]
  unfold score sqDist
  simp only [h0', h1, h6, h17, h19]

end Rbf.Tile

end
-- ==== Proof.HostPrefix.lean ====
/-
  The two arrays that @main prepares before the pallas_call, as the region finds them.

  The centres' sums of squares are computed on the host: `xb` squared elementwise, summed along the features into a
  vector of 4096, given a unit trailing axis and transposed into the row [1, 4096]. At `(0, n)` that row holds
  `∑ d, xb(n,d)²`. The bias [1] is reshaped to [1, 1]: its one entry.
-/
import proofs.«176033_j31842887532881_1_alg».proof.Proof.Gen.KernelIdeal.Frame
import proofs.«176033_j31842887532881_1_alg».proof.Proof.RbfSpec
import Idealize.ShloMosaic.Lib.StableHlo.Run
import Idealize.ShloMosaic.Lib.Pipeline.Value
import Idealize.ShloMosaic.PureOps.Ideal.Laws

noncomputable section

namespace Rbf.Prefix

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ)

/-- The four argument arrays as launched on core `c`, as arrays of extended reals. -/
abbrev argX (c : Dev nD) : FVec Ideal S65536x64 .f32 := m ((c : Thread nD τ).loc main_arg0)
abbrev argXB (c : Dev nD) : FVec Ideal S4096x64 .f32 := m ((c : Thread nD τ).loc main_arg1)
abbrev argW (c : Dev nD) : FVec Ideal S1x4096 .f32 := m ((c : Thread nD τ).loc main_arg2)
abbrev argB (c : Dev nD) : FVec Ideal S1 .f32 := m ((c : Thread nD τ).loc main_arg3)

/-- The two prepared arrays as the region finds them. -/
abbrev foundCentreSq (c : Dev nD) : FVec Ideal S1x4096 .f32 := V m c main_v3
abbrev foundBias (c : Dev nD) : FVec Ideal S1x1 .f32 := V m c main_v4

/-- The row of the centres' sums of squares, as the host operations' term of `xb`. -/
theorem centreSq_found (c : Dev nD) :
    foundCentreSq m c
      = transpose S1x4096 [1, 0] (broadcastInDim S4096x1 ![0] bcast_S4096_S4096x1_0
          (Host.reduceAdd (mulf (argXB m c) (argXB m c))
            (constant (F := Ideal) S_ .f32 0x00000000#32) reducesTo_S4096x64_S4096_d1 h_S_)) transposes_S4096x1_S1x4096_1_0 := by
  dsimp only [foundCentreSq, Gen.V, Gen.hostOps0]
  after_results

/-- The bias as a 1×1 array, as the host's reshape of `b`. -/
theorem bias_found (c : Dev nD) :
    foundBias m c = shapeCast S1x1 (argB m c) shapeCasts_S1_S1x1 := by
  dsimp only [foundBias, Gen.V, Gen.hostOps0]
  after_results
  rfl

/-- The sum of squares of centre `n`, read off the prepared row. -/
theorem centreSq_found_apply (c : Dev nD) (u : Fin 1) (n : Fin 4096) :
    foundCentreSq m c (ix2 u n) = ∑ d : Fin 64, argXB m c (ix2 n d) * argXB m c (ix2 n d) := by
  rw [centreSq_found]
  generalize argXB m c = xb
  rw [transpose_apply [1, 0] _ transposes_S4096x1_S1x4096_1_0 (ix2 u n) (ix2 n u) (fun b => match b with
    | ⟨0, _⟩ => rfl
    | ⟨1, _⟩ => rfl)]
  rw [broadcastInDim_apply _ bcast_S4096_S4096x1_0 _ (ix2 n u) (ix1 n) (fun a => match a with
    | ⟨0, _⟩ => by show n.val = if (4096 : Nat) = 1 then 0 else n.val; rw [if_neg (by decide)])]
  simp only [Host.reduceAdd, Ideal.hostReduceAdd_def]
  rw [Ideal.hostReduceAdd_single reducesTo_S4096x64_S4096_d1 (by decide)]
  refine (zero_word_add _).trans (Finset.sum_congr rfl fun d _ => ?_)
  have e : (by decide : S4096x64.Reduces [1] S4096).lift (ix1 n) d = ix2 n d :=
    funext fun a => Fin.ext (by match a with | ⟨0, _⟩ => rfl | ⟨1, _⟩ => rfl)
  rw [e]
  rfl

/-- The bias, read off the prepared 1×1 array. -/
theorem bias_found_apply (c : Dev nD) (u v : Fin 1) :
    foundBias m c (ix2 u v) = argB m c (ix1 (0 : Fin 1)) := by
  rw [bias_found]
  exact shapeCast_apply _ shapeCasts_S1_S1x1 (ix2 u v) (ix1 (0 : Fin 1)) (by
    rw [Shape.rowMajor_val_two, Shape.rowMajor_val_one]
    show (0 : Nat) = u.val * 1 + v.val
    have := u.isLt; have := v.isLt; omega)

end Rbf.Prefix

end
-- ==== Proof.KernelIsSpec.lean ====
/-
  The kernel's result array is `Rbf.score` of the four arguments.

  Grid point `t` of 128 works on observation rows `512·t … 512·t + 511`: it is handed that tile of `x`, all of `xb`,
  the prepared row of the centres' sums of squares, the weight row and the prepared bias, and writes back the 512×1
  block of the result at the same rows. What it writes at a row is the network's output at that row (the tile's
  value, with each handed block read as rows of the arrays); the 128 blocks cover the 65536 rows (row `i` is in
  block `i / 512`), so the result array is the network's output everywhere.
-/
import proofs.«176033_j31842887532881_1_alg».proof.Proof.Gen.KernelIdeal.Value
import proofs.«176033_j31842887532881_1_alg».proof.Proof.TileValue
import proofs.«176033_j31842887532881_1_alg».proof.Proof.HostPrefix

noncomputable section

namespace Rbf.Kernel

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Value

variable (m : (ℓ : Loc nD τ sig) → Buf (Elt Ideal) ℓ) (ρ : Dev nD → PrngReg)

theorem zeros : (![0, 0] : Fin 2 → Nat) = fun _ => 0 := funext fun a => by fin_cases a <;> rfl

/-- Which block each window hands the body at point `t`: the tile of `x` and the block of the result move with the
    point along the rows; every other operand is its whole array. Decided over the 128 points. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The network's output of the arguments as launched on core `c`. -/
abbrev result (c : Dev nD) : Buf (Elt Ideal) ((c : Thread nD τ).loc main_v5) :=
  score (Prefix.argX m c) (Prefix.argXB m c) (Prefix.argW m c) (Prefix.argB m c)

/-- Row `r` of the tile handed at point `t` is row `512·t + r` of `x`. -/
theorem tile_row (c : Dev nD) (t : Fin cfg0.N) (r : Fin 512) (d : Fin 64) (k : Fin 65536) (hk : k.val = t.val * 512 + r.val) :
    (iblk m c 0 t : FVec Ideal S512x64 .f32) (ix2 r d) = Prefix.argX m c (ix2 k d) := by
  obtain ⟨e0, e1, -⟩ := block_indices t
  unfold iblk
  rw [View.read_apply]
  show V m c main_arg0 _ = _
  rw [V_main_arg0]
  refine congrArg (Prefix.argX m c) (funext fun a => Fin.ext ?_)
  match a with
  | ⟨0, _⟩ => show win0_0.index t (0 : Fin 2) * 512 + 1 * r.val = k.val; rw [e0, hk]; omega
  | ⟨1, _⟩ => show win0_0.index t (1 : Fin 2) * 64 + 1 * d.val = d.val; rw [e1]; omega

/-- The centres block handed at any point is all of `xb`. -/
theorem centres_entry (c : Dev nD) (t : Fin cfg0.N) (n : Fin 4096) (d : Fin 64) :
    (iblk m c 1 t : FVec Ideal S4096x64 .f32) (ix2 n d) = Prefix.argXB m c (ix2 n d) := by
  obtain ⟨-, -, e0, e1, -⟩ := block_indices t
  unfold iblk
  rw [View.read_apply]
  show V m c main_arg1 _ = _
  rw [V_main_arg1]
  refine congrArg (Prefix.argXB m c) (funext fun a => Fin.ext ?_)
  match a with
  | ⟨0, _⟩ => show win0_1.index t (0 : Fin 2) * 4096 + 1 * n.val = n.val; rw [e0]; omega
  | ⟨1, _⟩ => show win0_1.index t (1 : Fin 2) * 64 + 1 * d.val = d.val; rw [e1]; omega

/-- The row handed at any point holds the centres' sums of squares. -/
theorem centreSq_entry (c : Dev nD) (t : Fin cfg0.N) (n : Fin 4096) :
    (iblk m c 2 t : FVec Ideal S1x4096 .f32) (ix2 (0 : Fin 1) n)
      = ∑ d : Fin 64, Prefix.argXB m c (ix2 n d) * Prefix.argXB m c (ix2 n d) := by
  obtain ⟨-, -, -, -, e0, e1, -⟩ := block_indices t
  refine Eq.trans ?_ (Prefix.centreSq_found_apply m c (0 : Fin 1) n)
  unfold iblk
  rw [View.read_apply]
  show Prefix.foundCentreSq m c _ = _
  refine congrArg (Prefix.foundCentreSq m c) (funext fun a => Fin.ext ?_)
  match a with
  | ⟨0, _⟩ => show win0_2.index t (0 : Fin 2) * 1 + 1 * 0 = 0; rw [e0]
  | ⟨1, _⟩ => show win0_2.index t (1 : Fin 2) * 4096 + 1 * n.val = n.val; rw [e1]; omega

/-- The weight row handed at any point is `w`. -/
theorem weight_entry (c : Dev nD) (t : Fin cfg0.N) (n : Fin 4096) :
    (iblk m c 3 t : FVec Ideal S1x4096 .f32) (ix2 (0 : Fin 1) n) = Prefix.argW m c (ix2 (0 : Fin 1) n) := by
  obtain ⟨-, -, -, -, -, -, e0, e1, -⟩ := block_indices t
  unfold iblk
  rw [View.read_apply]
  show V m c main_arg2 _ = _
  rw [V_main_arg2]
  refine congrArg (Prefix.argW m c) (funext fun a => Fin.ext ?_)
  match a with
  | ⟨0, _⟩ => show win0_3.index t (0 : Fin 2) * 1 + 1 * 0 = 0; rw [e0]
  | ⟨1, _⟩ => show win0_3.index t (1 : Fin 2) * 4096 + 1 * n.val = n.val; rw [e1]; omega

/-- The 1×1 block handed at any point holds the bias. -/
theorem bias_entry (c : Dev nD) (t : Fin cfg0.N) :
    (iblk m c 4 t : FVec Ideal S1x1 .f32) (ix2 (0 : Fin 1) (0 : Fin 1)) = Prefix.argB m c (ix1 (0 : Fin 1)) := by
  obtain ⟨-, -, -, -, -, -, -, -, e0, e1, -⟩ := block_indices t
  refine Eq.trans ?_ (Prefix.bias_found_apply m c (0 : Fin 1) (0 : Fin 1))
  unfold iblk
  rw [View.read_apply]
  show Prefix.foundBias m c _ = _
  refine congrArg (Prefix.foundBias m c) (funext fun a => Fin.ext ?_)
  match a with
  | ⟨0, _⟩ => show win0_4.index t (0 : Fin 2) * 1 + 1 * 0 = 0; rw [e0]
  | ⟨1, _⟩ => show win0_4.index t (1 : Fin 2) * 1 + 1 * 0 = 0; rw [e1]

/-- WHAT POINT `t` WRITES BACK is block `t` of the network's output. -/
theorem flushed_eq (c : Dev nD) (t : Fin cfg0.N) :
    (dats m 0 c).flushed 5 t = ((cfg0.win 5).blk t).view.read (Elt Ideal) (result m c) := by
  obtain ⟨-, -, -, -, -, -, -, -, -, -, e0, e1⟩ := block_indices t
  rw [flushed5]
  unfold out0_5
  rw [View.canon_unit_zero zeros]
  simp only [View.ld_unit_zero (S := S512x64) zeros, View.ld_unit_zero (S := S4096x64) zeros,
    View.ld_unit_zero (S := S1x4096) zeros, View.ld_unit_zero (S := S1x1) zeros]
  refine funext fun (j : S512x1.Idx) => ?_
  have hlt : t.val * 512 + (j 0).val < 65536 := by
    have h1 : t.val < 128 := lt_of_lt_of_eq t.isLt N_0
    have h2 : (j 0).val < 512 := (j 0).isLt
    omega
  exact Tile.stored_is_score (Prefix.argX m c) (Prefix.argXB m c) (Prefix.argW m c) (Prefix.argB m c)
    (iblk m c 0 t) (iblk m c 1 t) (iblk m c 2 t) (iblk m c 3 t) (iblk m c 4 t) j ⟨t.val * 512 + (j 0).val, hlt⟩
    (fun d => tile_row m c t (j 0) d _ rfl) (fun n d => centres_entry m c t n d) (fun n => centreSq_entry m c t n)
    (fun n => weight_entry m c t n) (bias_entry m c t)
    (((cfg0.win 5).blk t).view.emb j)
    (Fin.ext (by show win0_5.index t (0 : Fin 2) * 512 + 1 * (j 0).val = t.val * 512 + (j 0).val; rw [e0]; omega))

/-- An index of the result is in point `t`'s block iff each coordinate is in the block's range on its axis. -/
theorem mem_block (t : Fin cfg0.N) (i : S65536x1.Idx) :
    i ∈ ((cfg0.win 5).blk t).view.set ↔ ∀ a : Fin 2, win0_5.index t a * S512x1.size a ≤ (i a).val ∧ (i a).val < win0_5.index t a * S512x1.size a + S512x1.size a := by
  show i ∈ ((View.whole main_v5).slice (win0_5.rect t)).set ↔ _
  rw [View.set_slice_whole, Rect.mem_set_unit]
  exact Iff.rfl

/-- Every row of the result is in some point's block: row `i` in block `i / 512`. -/
theorem covered (i : S65536x1.Idx) : ∃ t : Fin cfg0.N, (cfg0.win 5).flush t = true ∧ i ∈ ((cfg0.win 5).blk t).view.set := by
  have hi0 : (i 0).val < 65536 := (i 0).isLt
  have hi1 : (i 1).val < 1 := (i 1).isLt
  have hq : (i 0).val / 512 < cfg0.N := by rw [show cfg0.N = 128 from N_0]; omega
  obtain ⟨-, -, -, -, -, -, -, -, -, -, e0, e1⟩ := block_indices ⟨(i 0).val / 512, hq⟩
  refine ⟨⟨(i 0).val / 512, hq⟩, flush0_5 _, ?_⟩
  rw [mem_block]
  intro a
  match a with
  | ⟨0, _⟩ =>
    show win0_5.index ⟨(i 0).val / 512, hq⟩ (0 : Fin 2) * 512 ≤ (i 0).val ∧ (i 0).val < win0_5.index ⟨(i 0).val / 512, hq⟩ (0 : Fin 2) * 512 + 512
    rw [e0]; show (i 0).val / 512 * 512 ≤ (i 0).val ∧ (i 0).val < (i 0).val / 512 * 512 + 512; omega
  | ⟨1, _⟩ =>
    show win0_5.index ⟨(i 0).val / 512, hq⟩ (1 : Fin 2) * 1 ≤ (i 1).val ∧ (i 1).val < win0_5.index ⟨(i 0).val / 512, hq⟩ (1 : Fin 2) * 1 + 1
    rw [e1]; omega

/-- THE RESULT ARRAY after the run is the network's output. -/
theorem final (c : Dev nD) : (dats m 0 c).arrAt 5 cfg0.N = result m c :=
  (dats m 0 c).arrAt_eq_of_cover 5 (result m c) (fun t _ => flushed_eq m c t) covered

/-- The kernel's run: the result array at the network's output of the arguments, the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Rbf.Kernel

end
-- ==== Proof.RefIsSpec.lean ====
/-
  The reference program's result is `Rbf.score` of its four arguments.

  The reference computes, over the whole 65536×4096 matrix at once: the row sums of squares of `x` (repeated across
  the columns) plus the row sums of squares of `xb` (laid along the columns and repeated down the rows), minus twice
  the product of `x` with the transpose of `xb`; the exponential of the negation; the product with the transpose of
  the weight row; the bias repeated down the column; and `1 / (1 + e^(−z))`. Read one operation at a time at an
  index, each piece is the corresponding piece of `Rbf.score`.
-/
import proofs.«176033_j31842887532881_1_alg».proof.Proof.Gen.ReferenceIdeal.Read
import proofs.«176033_j31842887532881_1_alg».proof.Proof.RbfSpec

noncomputable section

namespace Rbf.Ref

open Idealize.ShloMosaic Idealize.ShloMosaic.ValueIdx Cert.ReferenceIdeal Cert.ReferenceIdeal.Gen Cert.ReferenceIdeal.Read

variable (x0 : FVec Ideal S65536x64 .f32) (x1 : FVec Ideal S4096x64 .f32) (x2 : FVec Ideal S1x4096 .f32) (x3 : FVec Ideal S1 .f32)

/-- The observations' sums of squares, repeated across the columns: at `j` the sum over row `j 0` of `x`. -/
theorem rowSq_apply (j : S65536x4096.Idx) :
    val_main_v6 (F := Ideal) x0 j = ∑ d : Fin 64, x0 (ix2 (j 0) d) * x0 (ix2 (j 0) d) := by
  rw [val_main_v6_apply, val_main_v2_apply, val_main_v1_apply, val_main_cst_apply]
  refine (zero_word_add _).trans (Finset.sum_congr rfl fun d _ => ?_)
  have e : idx_main_v1 (idx_main_v2 (idx_main_v6 j)) d = ix2 (j 0) d :=
    funext fun a => Fin.ext (by match a with | ⟨0, _⟩ => rfl | ⟨1, _⟩ => rfl)
  rw [val_main_v0_apply, e]
  rfl

/-- The centres' sums of squares, laid along the columns and repeated down the rows: at `j` the sum over row `j 1`
    of `xb`. -/
theorem centreSq_apply (j : S65536x4096.Idx) :
    val_main_v7 (F := Ideal) x1 j = ∑ d : Fin 64, x1 (ix2 (j 1) d) * x1 (ix2 (j 1) d) := by
  rw [val_main_v7_apply, val_main_v5_apply, val_main_v4_apply, val_main_cst_0_apply]
  refine (zero_word_add _).trans (Finset.sum_congr rfl fun d _ => ?_)
  have e : idx_main_v4 (idx_main_v5 (idx_main_v7 j)) d = ix2 (j 1) d :=
    funext fun a => Fin.ext (by match a with | ⟨0, _⟩ => rfl | ⟨1, _⟩ => rfl)
  rw [val_main_v3_apply, e]
  rfl

/-- The product of `x` with the transpose of `xb`: at `j` the inner product of row `j 0` of `x` and row `j 1` of `xb`. -/
theorem cross_apply (j : S65536x4096.Idx) :
    val_main_v10 (F := Ideal) x0 x1 j = ∑ d : Fin 64, x0 (ix2 (j 0) d) * x1 (ix2 (j 1) d) := by
  rw [val_main_v10_apply]
  refine Finset.sum_congr rfl fun d _ => ?_
  have el : lidx_main_v10 j d = ix2 (j 0) d :=
    funext fun a => Fin.ext (by match a with | ⟨0, _⟩ => rfl | ⟨1, _⟩ => rfl)
  have er : idx_main_v9 (ridx_main_v10 j d) = ix2 (j 1) d :=
    funext fun a => Fin.ext (by match a with | ⟨0, _⟩ => rfl | ⟨1, _⟩ => rfl)
  rw [val_main_v9_apply, el, er]
  rfl

/-- The feature matrix: at `j` the exponential of minus the squared distance of observation `j 0` to centre `j 1`. -/
theorem feature_apply (j : S65536x4096.Idx) :
    val_main_v15 (F := Ideal) x0 x1 j = Ideal.exp (-(sqDist x0 x1 (j 0) (j 1))) := by
  rw [val_main_v15_apply, val_main_v14_apply, val_main_v13_apply, val_main_v8_apply, val_main_v12_apply,
    val_main_v11_apply, val_main_cst_1_apply, rowSq_apply, centreSq_apply, cross_apply]
  rfl

/-- The weighted sum of a row's features: at `i` the sum over the centres of the feature times the weight. -/
theorem weighted_apply (i : S65536x1.Idx) :
    val_main_v17 (F := Ideal) x0 x1 x2 i
      = ∑ n : Fin 4096, Ideal.exp (-(sqDist x0 x1 (i 0) n)) * x2 (ix2 (0 : Fin 1) n) := by
  rw [val_main_v17_apply]
  refine Finset.sum_congr rfl fun n _ => ?_
  have er : idx_main_v16 (ridx_main_v17 i n) = ix2 (0 : Fin 1) n :=
    funext fun a => Fin.ext (by
      match a with
      | ⟨0, _⟩ => show (i 1).val = 0; have h1 : (i 1).val < 1 := (i 1).isLt; omega
      | ⟨1, _⟩ => rfl)
  rw [feature_apply, val_main_v16_apply, er]
  rfl

/-- The bias repeated down the column: at every `i` the one entry of `b`. -/
theorem bias_apply (i : S65536x1.Idx) : val_main_v19 (F := Ideal) x3 i = x3 (ix1 (0 : Fin 1)) := by
  rw [val_main_v19_apply, val_main_v18_apply]
  exact congrArg x3 (funext fun a => Fin.ext (by match a with | ⟨0, _⟩ => rfl))

/-- THE REFERENCE'S RESULT is the network's output. -/
theorem result_eq : val_main_v26 (F := Ideal) x0 x1 x2 x3 = score x0 x1 x2 x3 := by
  funext i
  rw [val_main_v26_apply, val_main_v25_apply, val_main_cst_3_apply, val_main_v24_apply, val_main_v23_apply,
    val_main_cst_2_apply, val_main_v22_apply, val_main_v21_apply, val_main_v20_apply, weighted_apply, bias_apply]
  exact one_div_one_add_exp_neg _

end Rbf.Ref

end
-- ==== Proof.lean ====
/-
  A layer of Gaussian radial basis functions followed by one logistic unit: the kernel against the jnp reference, on
  the extended reals.

  Both programs compute, for each of the 65536 observation rows `k` of `x`,
  `logistic (∑ n, exp (−(|x_k|² + |c_n|² − 2·⟨x_k, c_n⟩)) · w_n + b)` over the 4096 centre rows `c_n` of `xb`
  (`Rbf.score`). The reference does it on whole arrays; the kernel prepares the centres' sums of squares on the host,
  then works tile by tile over 512 rows at a time. The two differ only in how sums are arranged and in two spellings
  — `0 − y` for `−y`, and the logistic function against `1 / (1 + e^(−z))` — which agree at every extended real, so
  no use is made of the inputs being finite.

  The idealized kernel is the kernel's own text read on the extended reals (no operation was rewritten), so there is
  nothing to preserve beyond that. The three frames are the generated runs.
-/
import proofs.«176033_j31842887532881_1_alg».proof.Defs
import proofs.«176033_j31842887532881_1_alg».proof.Proof.Gen.Kernel
import proofs.«176033_j31842887532881_1_alg».proof.Proof.Gen.Kernel.Skeleton
import proofs.«176033_j31842887532881_1_alg».proof.Proof.Gen.Kernel.Launch
import proofs.«176033_j31842887532881_1_alg».proof.Proof.Gen.Kernel.Points
import proofs.«176033_j31842887532881_1_alg».proof.Proof.Gen.Kernel.Frame
import proofs.«176033_j31842887532881_1_alg».proof.Proof.Gen.KernelIdeal
import proofs.«176033_j31842887532881_1_alg».proof.Proof.Gen.KernelIdeal.Skeleton
import proofs.«176033_j31842887532881_1_alg».proof.Proof.Gen.KernelIdeal.Launch
import proofs.«176033_j31842887532881_1_alg».proof.Proof.Gen.KernelIdeal.Points
import proofs.«176033_j31842887532881_1_alg».proof.Proof.Gen.KernelIdeal.Frame
import proofs.«176033_j31842887532881_1_alg».proof.Proof.Gen.ReferenceIdeal
import proofs.«176033_j31842887532881_1_alg».proof.Proof.Gen.KernelIdeal.Value
import proofs.«176033_j31842887532881_1_alg».proof.Proof.Gen.ReferenceIdeal.Run
import proofs.«176033_j31842887532881_1_alg».proof.Proof.Gen.ReferenceIdeal.Read
import proofs.«176033_j31842887532881_1_alg».proof.Proof.Gen.Pre_finite_inputs
import proofs.«176033_j31842887532881_1_alg».proof.Proof.KernelIsSpec
import proofs.«176033_j31842887532881_1_alg».proof.Proof.RefIsSpec
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten when it was idealized. -/
theorem preserves : Cert.preserves_Kernel_KernelIdeal := trivial

/-- From memories that agree on the four arguments, the kernel's result array and the reference's both end at the
    network's output of those arguments. -/
theorem algebraic : Cert.algebraic_KernelIdeal_ReferenceIdeal := by
  intro m ρ m' ρ' _ hagree
  refine ⟨fun c => Rbf.Kernel.result m c, Rbf.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Rbf.Ref.result_eq, (hagree c).1, (hagree c).2.1, (hagree c).2.2.1,
    (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
